-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10240 : Shape := ⟨2, ![8192, 10240]⟩
abbrev S1000x10240 : Shape := ⟨2, ![1000, 10240]⟩
abbrev S_ : Shape := ⟨0, ![]⟩

class Facts : Prop where
  bcast_S_S8192x10240 : S_.BroadcastsInDim S8192x10240 (![] : Fin 0 → Fin S8192x10240.rank)
  reducesTo_S8192x10240_S_d0_1 : S8192x10240.ReducesTo [0, 1] S_
  h_S_ : 0 < S_.numel
  bcast_S_S1000x10240 : S_.BroadcastsInDim S1000x10240 (![] : Fin 0 → Fin S1000x10240.rank)
  reducesTo_S1000x10240_S_d0_1 : S1000x10240.ReducesTo [0, 1] S_

variable [Facts]

def fn {F : FTy → Type} [FloatOps F] (main_arg0 : FVec F S8192x10240 .f32) (main_arg1 : FVec F S1000x10240 .f32) : IVec S_ 1 :=
  let main_v0 : FVec F S8192x10240 .f32 := Host.absf main_arg0
  let main_cst : FVec F S_ .f32 := constant S_ .f32 0x7F800000#32
  let main_v1 : FVec F S8192x10240 .f32 := broadcastInDim S8192x10240 ![] bcast_S_S8192x10240 main_cst
  let main_v2 : IVec S8192x10240 1 := cmpf .olt main_v0 main_v1
  let main_c : IVec S_ 1 := constantI S_ 1 1#1
  let main_v3 : IVec S_ 1 := (fun x v => Host.reduce IntOp.andi x v reducesTo_S8192x10240_S_d0_1 h_S_) main_v2 main_c
  let main_v4 : FVec F S1000x10240 .f32 := Host.absf main_arg1
  let main_cst_0 : FVec F S_ .f32 := constant S_ .f32 0x7F800000#32
  let main_v5 : FVec F S1000x10240 .f32 := broadcastInDim S1000x10240 ![] bcast_S_S1000x10240 main_cst_0
  let main_v6 : IVec S1000x10240 1 := cmpf .olt main_v4 main_v5
  let main_c_1 : IVec S_ 1 := constantI S_ 1 1#1
  let main_v7 : IVec S_ 1 := (fun x v => Host.reduce IntOp.andi x v reducesTo_S1000x10240_S_d0_1 h_S_) main_v6 main_c_1
  let main_v8 : IVec S_ 1 := andi main_v3 main_v7
  main_v8
-- ==== Kernel.lean ====
abbrev S8192x10240 : Shape := ⟨2, ![8192, 10240]⟩
abbrev S1000x10240 : Shape := ⟨2, ![1000, 10240]⟩
abbrev S_ : Shape := ⟨0, ![]⟩
abbrev S1024x10240 : Shape := ⟨2, ![1024, 10240]⟩
abbrev S1024x2048 : Shape := ⟨2, ![1024, 2048]⟩
abbrev S8192x1024 : Shape := ⟨2, ![8192, 1024]⟩
abbrev S1024x1024 : Shape := ⟨2, ![1024, 1024]⟩
abbrev S8192x1000 : Shape := ⟨2, ![8192, 1000]⟩

abbrev nBuf : Space → Nat
  | .hbm => 8
  | .vmem => 11
  | .smem => 0
  | _ => 0

abbrev bufTy : (tb : Table) → Fin (tcTables nBuf tb) → BufTy
  | .hbm, ⟨0, _⟩ => ⟨S8192x10240, .f32⟩
  | .hbm, ⟨1, _⟩ => ⟨S1000x10240, .f32⟩
  | .hbm, ⟨2, _⟩ => ⟨S_, .i32⟩
  | .hbm, ⟨3, _⟩ => ⟨S_, .f32⟩
  | .hbm, ⟨4, _⟩ => ⟨S1024x10240, .f32⟩
  | .hbm, ⟨5, _⟩ => ⟨S1024x10240, .bf16⟩
  | .hbm, ⟨6, _⟩ => ⟨S8192x1024, .f32⟩
  | .hbm, ⟨7, _⟩ => ⟨S8192x1000, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 10], ![false, false]⟩

def k1_cond2 (i : grid1.Coords) : BitVec 1 :=
  let arg1 : BitVec 32 := BitVec.ofNat 32 (i 1).val
  let c9_i32 : BitVec 32 := 9#32
  let v18 : BitVec 1 := Scalar.cmpi .eq arg1 c9_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S1000x10240_S1024x10240_0240_000 : S1000x10240.Pads (![0, 0] : Fin 2 → Nat) ![24, 0] ![0, 0] S1024x10240
  h_S_ : 0 < S_.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S8192x1024_S8192x1000_0_0 : S8192x1024.Slices ![0, 0] S8192x1000
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x10240.size a
  hwx0_0 : ∀ i : grid0.Coords, EltTy.bits .f32 = 32 ∨ (Rect.block (s := S1024x10240) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x10240.size a
  hwx0_1 : ∀ i : grid0.Coords, EltTy.bits .bf16 = 32 ∨ (Rect.block (s := S1024x10240) S1024x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x10240.size a
  hwx1_0 : ∀ i : grid1.Coords, EltTy.bits .f32 = 32 ∨ (Rect.block (s := S8192x10240) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x10240.size a
  hwx1_1 : ∀ i : grid1.Coords, EltTy.bits .bf16 = 32 ∨ (Rect.block (s := S1024x10240) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x10240 : Shape := ⟨2, ![8192, 10240]⟩
abbrev S1000x10240 : Shape := ⟨2, ![1000, 10240]⟩
abbrev S_ : Shape := ⟨0, ![]⟩
abbrev S8192x1000 : Shape := ⟨2, ![8192, 1000]⟩

abbrev nBuf : Space → Nat
  | .hbm => 27
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1000x10240, .f32⟩
  | .hbm, ⟨2, _⟩ => ⟨S_, .f32⟩
  | .hbm, ⟨3, _⟩ => ⟨S8192x10240, .f32⟩
  | .hbm, ⟨4, _⟩ => ⟨S8192x10240, .i1⟩
  | .hbm, ⟨5, _⟩ => ⟨S_, .f32⟩
  | .hbm, ⟨6, _⟩ => ⟨S_, .f32⟩
  | .hbm, ⟨7, _⟩ => ⟨S8192x10240, .f32⟩
  | .hbm, ⟨8, _⟩ => ⟨S8192x10240, .f32⟩
  | .hbm, ⟨9, _⟩ => ⟨S8192x10240, .f32⟩
  | .hbm, ⟨10, _⟩ => ⟨S8192x10240, .f32⟩
  | .hbm, ⟨11, _⟩ => ⟨S_, .f32⟩
  | .hbm, ⟨12, _⟩ => ⟨S1000x10240, .f32⟩
  | .hbm, ⟨13, _⟩ => ⟨S1000x10240, .i1⟩
  | .hbm, ⟨14, _⟩ => ⟨S_, .f32⟩
  | .hbm, ⟨15, _⟩ => ⟨S_, .f32⟩
  | .hbm, ⟨16, _⟩ => ⟨S1000x10240, .f32⟩
  | .hbm, ⟨17, _⟩ => ⟨S1000x10240, .f32⟩
  | .hbm, ⟨18, _⟩ => ⟨S1000x10240, .f32⟩
  | .hbm, ⟨19, _⟩ => ⟨S1000x10240, .f32⟩
  | .hbm, ⟨20, _⟩ => ⟨S8192x1000, .f32⟩
  | .hbm, ⟨21, _⟩ => ⟨S_, .f32⟩
  | .hbm, ⟨22, _⟩ => ⟨S8192x1000, .f32⟩
  | .hbm, ⟨23, _⟩ => ⟨S8192x1000, .f32⟩
  | .hbm, ⟨24, _⟩ => ⟨S_, .f32⟩
  | .hbm, ⟨25, _⟩ => ⟨S8192x1000, .f32⟩
  | .hbm, ⟨26, _⟩ => ⟨S8192x1000, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]

class Facts₀ : Prop where
  bcast_S_S8192x10240 : S_.BroadcastsInDim S8192x10240 (![] : Fin 0 → Fin S8192x10240.rank)
  bcast_S_S1000x10240 : S_.BroadcastsInDim S1000x10240 (![] : Fin 0 → Fin S1000x10240.rank)
  bcast_S_S8192x1000 : S_.BroadcastsInDim S8192x1000 (![] : Fin 0 → Fin S8192x1000.rank)
  dot_S8192x10240_S1000x10240_S8192x1000_1_1_0_0_n_n_wf : DotDims.WF S8192x10240 S1000x10240 S8192x1000 [1] [1] [0] [0] [] []

variable [Facts₀]

def dot_S8192x10240_S1000x10240_S8192x1000_1_1_0_0_n_n : DotDims S8192x10240 S1000x10240 S8192x1000 where
  lhsContracting := [1]
  rhsContracting := [1]
  lhsNonContracting := [0]
  rhsNonContracting := [0]
  lhsBatch := []
  rhsBatch := []
  wf := dot_S8192x10240_S1000x10240_S8192x1000_1_1_0_0_n_n_wf

class Facts : Prop extends Facts₀ where

variable [Facts]
-- ==== Proof.KFrame0.lean ====
/-
  The sign-binarizing region (the first of the two kernel regions), at any reading of the floats.

  Its grid has 5 points; at point t the body loads the 1024 x 2048 block t of the zero-padded prototype array,
  replaces every entry by +1 where it is above zero and by -1 elsewhere, narrows to bf16 and stores the block whole.
  Stated here, for any contents V the region is entered with: what the output's staging buffer holds after the
  body (the one store, read back), the body's run, the region's proof data and the body obligation at every point.
-/
import proofs.«159604_j38036230373922_2_alg».proof.Proof.Gen.Kernel.Launch
import proofs.«159604_j38036230373922_2_alg».proof.Proof.Gen.Kernel.Skeleton
import proofs.«159604_j38036230373922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle every access of the body goes through. -/
abbrev r0 : Rect S1024x2048 := Rect.unit (s := S1024x2048) ![0, 0] S1024x2048.size inb_S1024x2048_S1024x2048_0_0

/-- The output's staging buffer after the body: the one store of the sign pattern of the input block. -/
def out0 (x0 : Vec F S1024x2048 .f32) : Vec F S1024x2048 .bf16 :=
  View.canon [⟨r0, k0_pay1 (View.ld x0 r0)⟩]

/-- The one whole-block store covers the buffer. -/
theorem cover0 (p0 : Vec F S1024x2048 .bf16) (y : S1024x2048.Idx) :
    ∃ pc ∈ ([⟨r0, p0⟩] : List (View.Piece (Elt F) S1024x2048 .bf16)), y ∈ pc.1.set :=
  View.cover_of_tiled [⟨r0, p0⟩] S1024x2048.size (by rfl) y

set_option maxHeartbeats 1000000 in
/-- The body on whole staging memrefs, the input's at contents `x0` and the output's at anything, runs to the
    continuation holding the input's as it was and the output's at `out0 x0`. -/
theorem sound_kernel0 (c : Dev nD) (E : Set ℕ) (i : grid0.Coords) (arg2 : Memref sig .tc .vmem S1024x2048 .f32) (harg2 : arg2.IsWhole) (arg3 : Memref sig .tc .vmem S1024x2048 .bf16) (harg3 : arg3.IsWhole)
    (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0 x0)) -∗ K ⟨⟩))
      ⊢ wp frame (wpE (defs₀ (F := F)) Variants.none c none) E (cc0__sign_kernel i arg2 harg2 arg3 harg3) K := by
  simp only [cc0__sign_kernel_eq_skeleton]; unfold cc0__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of the region on core `c`: the arrays as the region finds them; after the body at point `t` the
    input's buffer at its block and the output's at the sign pattern of that block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.KFrame1.lean ====
/-
  The matmul region (the second of the two kernel regions), at any reading of the floats.

  Its grid is 8 x 10: point t = 10 i + k handles rows 1024 i ... 1024 i + 1023 of the query array and columns
  1024 k ... 1024 k + 1023 of both operands. A 1024 x 1024 scratch accumulator is carried from point to point:
  at k = 0 it is zeroed, at every k the product of the sign pattern of the query block with the (already
  sign-binarized) prototype block is added to it, and at k = 9 the output block i is stored as
  (accumulator + 10240) * 1/2. At the other points the output window is idle and is not written back.

  Stated here, for any contents V the region is entered with: the body's run in each of the three control cases
  (first / middle / last column block of a row block), the accumulator after each point by recursion on the
  point, the invariant carrying it, the region's proof data and the body obligation at every point.
-/
import proofs.«159604_j38036230373922_2_alg».proof.Proof.Gen.Kernel.Launch
import proofs.«159604_j38036230373922_2_alg».proof.Proof.Gen.Kernel.Skeleton
import proofs.«159604_j38036230373922_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and branch conditions -/

/-- The whole-block rectangle every access of the body goes through. -/
abbrev r1 : Rect S1024x1024 := Rect.unit (s := S1024x1024) ![0, 0] S1024x1024.size inb_S1024x1024_S1024x1024_0_0

theorem hz1 : (![0, 0] : Fin S1024x1024.rank → Nat) = fun _ => 0 := by
  funext a; match a with | ⟨0, _⟩ => rfl | ⟨1, _⟩ => rfl

/-- A whole-block store, last, covers the buffer whatever was stored before. -/
theorem cover1 (p0 : Vec F S1024x1024 .f32) (L : List (View.Piece (Elt F) S1024x1024 .f32)) (y : S1024x1024.Idx) :
    ∃ pc ∈ ((⟨r1, p0⟩ : View.Piece (Elt F) S1024x1024 .f32) :: L), y ∈ pc.1.set :=
  ⟨⟨r1, p0⟩, List.mem_cons_self .., View.mem_set_unit_zero hz1 inb_S1024x1024_S1024x1024_0_0 y⟩

/-- The first branch: the column block is the first of its row block (k = 0). -/
abbrev cond1 (i : grid1.Coords) : Prop := (Scalar.cmpi .ne (Scalar.extui (Scalar.cmpi .eq (BitVec.ofNat 32 (i 1).val) 0#32)) 0#32) = 1#1
/-- The second branch: the column block is the last of its row block (k = 9). -/
abbrev cond2 (i : grid1.Coords) : Prop := k1_cond2 i = 1#1

theorem hcond1 : ∀ t : Fin cfg1.N, cond1 (grid1.coords t) ↔ t.val % 10 = 0 :=
  (by decide +kernel : ∀ t : Fin grid1.N, cond1 (grid1.coords t) ↔ t.val % 10 = 0)
theorem hcond2 : ∀ t : Fin cfg1.N, cond2 (grid1.coords t) ↔ t.val % 10 = 9 :=
  (by decide +kernel : ∀ t : Fin grid1.N, cond2 (grid1.coords t) ↔ t.val % 10 = 9)

/-- The two input windows are never idle; the output window is idle, and not written back, exactly away from k = 9. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond2 (grid1.coords t) → cfg1.idle 2 (grid1.coords t) = true := by decide +kernel
theorem noFlush1_2 : ∀ t : Fin cfg1.N, ¬cond2 (grid1.coords t) → (cfg1.win 2).flush t = false := by decide +kernel
theorem liveAt1_2 : ∀ t : Fin cfg1.N, cond2 (grid1.coords t) → cfg1.idle 2 (grid1.coords t) = false := by decide +kernel

/-- The scratch accumulator: a whole scoped buffer of the kernel's own, passed beside the windows. -/
abbrev scM : Memref sig .tc .vmem S1024x1024 .f32 := Memref.whole cc1_scratch0

/-! ## The body's run, case by case -/

set_option maxHeartbeats 2000000 in
/-- FIRST column block (k = 0, not the last): the accumulator, at anything, ends at the product added to zero. -/
theorem runA (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : cond1 i) (hc2 : ¬cond2 i)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 (k1_pay1 (F := F)) x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover1 _ _), View.canon_cons_unit_zero hz1,
    View.readCov_unit_zero (S := S1024x1024) _ hz1 inb_S1024x1024_S1024x1024_0_0]
  simp only [View.readAt_eq_ld, View.ld_unit_zero (S := S1024x1024) hz1]

set_option maxHeartbeats 2000000 in
/-- A MIDDLE column block (0 < k < 9): the accumulator, at `xs`, ends at `xs` plus the product. -/
theorem runB (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : ¬cond1 i) (hc2 : ¬cond2 i)
    (x0 : Vec F S1024x1024 .f32) (x1 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 x0 xs x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover1 _ _), View.canon_cons_unit_zero hz1]
  simp only [View.readAt_eq_ld, View.ld_unit_zero (S := S1024x1024) hz1]

set_option maxHeartbeats 2000000 in
/-- The LAST column block (k = 9): the accumulator, at `xs`, ends at `xs` plus the product, and the output's buffer,
    at anything, at (that + 10240) * 1/2. -/
theorem runC (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : ¬cond1 i) (hc2 : cond2 i)
    (x0 : Vec F S1024x1024 .f32) (x1 : Vec F S1024x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 xs x1)) ∗ owns (c : Thread nD τ) arg5 fullShare (k1_pay2 x0 xs x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover1 _ _), View.canon_cons_unit_zero hz1,
      View.readCov_unit_zero (S := S1024x1024) _ hz1 inb_S1024x1024_S1024x1024_0_0]
    simp only [View.readAt_eq_ld, View.ld_unit_zero (S := S1024x1024) hz1]
  iexists _; isplitr
  swap; · iexact HS
  ipureintro
  sl_unfold_run_names
  rw [View.read_writes_eq_canon _ _ _ (cover1 _ _), View.canon_cons_unit_zero hz1]
  simp only [View.readAt_eq_ld, View.ld_unit_zero (S := S1024x1024) hz1]

end Cert.Kernel.Frm

end
-- ==== Proof.KFrame1D.lean ====
/-
  The matmul region, continued: the accumulator point by point, the invariant that carries it, the proof data and
  the body obligation.

  After the body at position n = 10 i + k the scratch holds the sum, over the column blocks 0 ... k of row block
  i, of the products of the sign pattern of the query block with the prototype block: by recursion on n, starting
  afresh from zero wherever n is a multiple of 10.
-/
import proofs.«159604_j38036230373922_2_alg».proof.Proof.KFrame1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the scratch holds after the body at position `n`: the product of the point's blocks
    added to zero where the point opens a row block, to what the point before left otherwise. -/
def accAt (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn =>
    if (n + 1) % 10 = 0 then k1_pay2 (iblk1 V c 0 ⟨n + 1, hn⟩) (k1_pay1 (F := F)) (iblk1 V c 1 ⟨n + 1, hn⟩)
    else k1_pay2 (iblk1 V c 0 ⟨n + 1, hn⟩) (accAt c n (Nat.lt_of_succ_lt hn)) (iblk1 V c 1 ⟨n + 1, hn⟩)

theorem accAt_first (c : Dev nD) (t : Fin cfg1.N) (h : t.val % 10 = 0) :
    accAt V c t.val t.isLt = k1_pay2 (iblk1 V c 0 t) (k1_pay1 (F := F)) (iblk1 V c 1 t) := by
  obtain ⟨n, hn⟩ := t
  cases n with
  | zero => rfl
  | succ n => exact if_pos h

theorem accAt_next (c : Dev nD) (t : Fin cfg1.N) (h : ¬t.val % 10 = 0) :
    accAt V c t.val t.isLt = k1_pay2 (iblk1 V c 0 t) (accAt V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- A scoped buffer of the other region, whole at some contents. -/
abbrev sb (c : Dev nD) (b : Ref sig .tc) : sProp 𝕄 :=
  iprop(∃ f : Buf (Elt F) ((c : Thread nD τ).loc b), ((c : Thread nD τ).loc b) ↦{fullShare} f)

/-- The class invariant with the scratch as a memref owned at some contents. -/
theorem PhiA1_eq (c : Dev nD) :
    (Pipeline.ΦA spec1 c : sProp 𝕄)
      = iprop(iprop(sb c cc0_stg0_0 ∗ sb c cc0_stg0_1 ∗ sb c cc0_stg1_0 ∗ sb c cc0_stg1_1 ∗ (∃ d, owns (c : Thread nD τ) scM fullShare d)) ∗ (∃ r, prngReg c r)) := by
  unfold Pipeline.ΦA; rw [scopedRest1_eq]; simp only [scM, owns_whole]; rfl

/-- The region invariant before position `n`: before the first point the class's (every scoped buffer at anything);
    afterwards the same with the scratch at what the point before left in it. -/
def PhiS (c : Dev nD) : (n : ℕ) → n ≤ cfg1.N → sProp 𝕄
  | 0, _ => Pipeline.ΦA spec1 c
  | n + 1, hn => iprop(iprop(sb c cc0_stg0_0 ∗ sb c cc0_stg0_1 ∗ sb c cc0_stg1_0 ∗ sb c cc0_stg1_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(sb c cc0_stg0_0 ∗ sb c cc0_stg0_1 ∗ sb c cc0_stg1_0 ∗ sb c cc0_stg1_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(sb c cc0_stg0_0 ∗ sb c cc0_stg0_1 ∗ sb c cc0_stg1_0 ∗ sb c cc0_stg1_1 ∗ owns (c : Thread nD τ) scM fullShare (accAt V c (n - 1) (by omega))) ∗ (∃ r, prngReg c r)) := by
  cases n with
  | zero => exact absurd rfl hz
  | succ n => rfl

/-- The proof data of the region on core `c`: the arrays as the region finds them; after the body at point `t`
    each input's buffer at its block and the output's at (accumulator + 10240) * 1/2 (consulted only where the
    point writes the block back: k = 9); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position among the column blocks says
    which case it is in; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 80 := lt_of_lt_of_eq t.isLt (show cfg1.N = 80 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 10 = 0
  · have h9 : ¬t.val % 10 = 9 := by omega
    rw [Dat.leavesExact_idle (dat1 V c) 2 t (idleAt1_2 t (fun h => h9 ((hcond2 t).mp h))) (noFlush1_2 t (fun h => h9 ((hcond2 t).mp h)))]
    rw [accAt_first V c t h0]
    by_cases hz : t.val = 0
    · rw [PhiS_castSucc V c t, PhiS_zero V c _ _ hz, PhiA1_eq]
      iintro ⟨⟨⟨Ha, Hb, Hc, Hd, HS⟩, Hg⟩, Ho, ⟨%d0, H0⟩, ⟨%d1, H1⟩, H2⟩
      iapply (runA c Set.univ (grid1.coords t) _ _ _ _ _ _ _ _ ((hcond1 t).mpr h0) (fun h => h9 ((hcond2 t).mp h)) (iblk1 V c 0 t) (iblk1 V c 1 t) _)
      isplitl [H0]; · iexact H0
      isplitl [H1]; · iexact H1
      isplitl [HS]; · iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
    · rw [PhiS_castSucc V c t, PhiS_pos V c _ _ hz]
      iintro ⟨⟨⟨Ha, Hb, Hc, Hd, HS⟩, Hg⟩, Ho, ⟨%d0, H0⟩, ⟨%d1, H1⟩, H2⟩
      iapply (runA c Set.univ (grid1.coords t) _ _ _ _ _ _ _ _ ((hcond1 t).mpr h0) (fun h => h9 ((hcond2 t).mp h)) (iblk1 V c 0 t) (iblk1 V c 1 t) _)
      isplitl [H0]; · iexact H0
      isplitl [H1]; · iexact H1
      isplitl [HS]; · iexists _; iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
  · have hz : t.val ≠ 0 := by omega
    rw [accAt_next V c t h0]
    rw [PhiS_castSucc V c t, PhiS_pos V c _ _ hz]
    by_cases h9 : t.val % 10 = 9
    · rw [show (dat1 V c).leavesExact 2 t = owns (c : Thread nD τ) (st1_2 t) fullShare ((dat1 V c).after 2 t) from by
        unfold Dat.leavesExact; rw [liveAt1_2 t ((hcond2 t).mpr h9)], after1_2, accAt_next V c t h0]
      iintro ⟨⟨⟨Ha, Hb, Hc, Hd, HS⟩, Hg⟩, Ho, ⟨%d0, H0⟩, ⟨%d1, H1⟩, ⟨%d2, H2⟩⟩
      iapply (runC c Set.univ (grid1.coords t) _ _ _ _ _ _ _ _ (fun h => h0 ((hcond1 t).mp h)) ((hcond2 t).mpr h9) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
    · rw [Dat.leavesExact_idle (dat1 V c) 2 t (idleAt1_2 t (fun h => h9 ((hcond2 t).mp h))) (noFlush1_2 t (fun h => h9 ((hcond2 t).mp h)))]
      iintro ⟨⟨⟨Ha, Hb, Hc, Hd, HS⟩, Hg⟩, Ho, ⟨%d0, H0⟩, ⟨%d1, H1⟩, H2⟩
      iapply (runB c Set.univ (grid1.coords t) _ _ _ _ _ _ _ _ (fun h => h0 ((hcond1 t).mp h)) (fun h => h9 ((hcond2 t).mp h)) (iblk1 V c 0 t) (iblk1 V c 1 t) _ _)
      isplitl [H0]; · iexact H0
      isplitl [H1]; · iexact H1
      isplitl [HS]; · iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's named contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 80 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Region1

end Cert.Kernel.Frm

end
-- ==== Proof.KRun.lean ====
/-
  The whole run of the program, at any reading of the floats: the host operations before the two kernel regions
  (a zero constant; the prototype array zero-padded from 1000 to 1024 rows), the sign-binarizing region, the matmul
  region, and the host slice that drops the 24 padded columns.

  The buffers' contents at each boundary are a fold from the launch memory: a host stretch applies its operations,
  a region leaves its arrays at what its write-backs leave and every other buffer as entered. Every weakly fair
  execution terminates with each unscoped buffer at the last boundary's contents; in particular the two argument
  arrays end as launched (no host operation and no region writes one), and the result buffer ends at the slice of
  what the matmul region left.
-/
import proofs.«159604_j38036230373922_2_alg».proof.Proof.KFrame0
import proofs.«159604_j38036230373922_2_alg».proof.Proof.KFrame1D
import proofs.«159604_j38036230373922_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the zero constant. -/
abbrev W1 : Dev nD → Valuation τ sig (Elt F) := fun c => StableHlo.after hostOps0 (W0 m c)
/-- After the padding (the first region's entry). -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit, likewise. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the slice (the end). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := (W4_arr m c 0).trans (((dat1 (V3 m) c).arrAt_in 0 rfl _).trans (A_eq1 (V3 m) c 0))
    _ = W2 m c (Proc.devRef .tc main_arg0) := W3_of_ne m c main_arg0 (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The sign-binarizing region over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region over the thread state: entered from every unscoped buffer at `W3`, left at `W4`; the scratch
    accumulator goes into the invariant at anything and comes back at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_out1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, with the result buffer at the last boundary's contents and both argument arrays as launched. -/
theorem run_main : θ_run defs (onTc (τ := τ) (main (F := F))) ⟨m, fun _ => 0, ρ⟩ (fun r => ∀ c : Dev nD,
      r.2.mem ((c.tc : Thread nD τ).loc main_v3) = W5 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v3 (by decide)),
       (h c _ (mem_uc main_arg0 (by decide))).trans (W5_main_arg0 m c),
       (h c _ (mem_uc main_arg1 (by decide))).trans (W5_main_arg1 m c)⟩)

end Cert.Kernel.Frm

end
-- ==== Proof.KIFrame0.lean ====
/-
  The sign-binarizing region (the first of the two kernel regions), at any reading of the floats.

  Its grid has 5 points; at point t the body loads the 1024 x 2048 block t of the zero-padded prototype array,
  replaces every entry by +1 where it is above zero and by -1 elsewhere, narrows to bf16 and stores the block whole.
  Stated here, for any contents V the region is entered with: what the output's staging buffer holds after the
  body (the one store, read back), the body's run, the region's proof data and the body obligation at every point.
-/
import proofs.«159604_j38036230373922_2_alg».proof.Proof.Gen.KernelIdeal.Launch
import proofs.«159604_j38036230373922_2_alg».proof.Proof.Gen.KernelIdeal.Skeleton
import proofs.«159604_j38036230373922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle every access of the body goes through. -/
abbrev r0 : Rect S1024x2048 := Rect.unit (s := S1024x2048) ![0, 0] S1024x2048.size inb_S1024x2048_S1024x2048_0_0

/-- The output's staging buffer after the body: the one store of the sign pattern of the input block. -/
def out0 (x0 : Vec F S1024x2048 .f32) : Vec F S1024x2048 .bf16 :=
  View.canon [⟨r0, k0_pay1 (View.ld x0 r0)⟩]

/-- The one whole-block store covers the buffer. -/
theorem cover0 (p0 : Vec F S1024x2048 .bf16) (y : S1024x2048.Idx) :
    ∃ pc ∈ ([⟨r0, p0⟩] : List (View.Piece (Elt F) S1024x2048 .bf16)), y ∈ pc.1.set :=
  View.cover_of_tiled [⟨r0, p0⟩] S1024x2048.size (by rfl) y

set_option maxHeartbeats 1000000 in
/-- The body on whole staging memrefs, the input's at contents `x0` and the output's at anything, runs to the
    continuation holding the input's as it was and the output's at `out0 x0`. -/
theorem sound_kernel0 (c : Dev nD) (E : Set ℕ) (i : grid0.Coords) (arg2 : Memref sig .tc .vmem S1024x2048 .f32) (harg2 : arg2.IsWhole) (arg3 : Memref sig .tc .vmem S1024x2048 .bf16) (harg3 : arg3.IsWhole)
    (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0 x0)) -∗ K ⟨⟩))
      ⊢ wp frame (wpE (defs₀ (F := F)) Variants.none c none) E (cc0__sign_kernel i arg2 harg2 arg3 harg3) K := by
  simp only [cc0__sign_kernel_eq_skeleton]; unfold cc0__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of the region on core `c`: the arrays as the region finds them; after the body at point `t` the
    input's buffer at its block and the output's at the sign pattern of that block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KIFrame1.lean ====
/-
  The matmul region (the second of the two kernel regions), at any reading of the floats.

  Its grid is 8 x 10: point t = 10 i + k handles rows 1024 i ... 1024 i + 1023 of the query array and columns
  1024 k ... 1024 k + 1023 of both operands. A 1024 x 1024 scratch accumulator is carried from point to point:
  at k = 0 it is zeroed, at every k the product of the sign pattern of the query block with the (already
  sign-binarized) prototype block is added to it, and at k = 9 the output block i is stored as
  (accumulator + 10240) * 1/2. At the other points the output window is idle and is not written back.

  Stated here, for any contents V the region is entered with: the body's run in each of the three control cases
  (first / middle / last column block of a row block), the accumulator after each point by recursion on the
  point, the invariant carrying it, the region's proof data and the body obligation at every point.
-/
import proofs.«159604_j38036230373922_2_alg».proof.Proof.Gen.KernelIdeal.Launch
import proofs.«159604_j38036230373922_2_alg».proof.Proof.Gen.KernelIdeal.Skeleton
import proofs.«159604_j38036230373922_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and branch conditions -/

/-- The whole-block rectangle every access of the body goes through. -/
abbrev r1 : Rect S1024x1024 := Rect.unit (s := S1024x1024) ![0, 0] S1024x1024.size inb_S1024x1024_S1024x1024_0_0

theorem hz1 : (![0, 0] : Fin S1024x1024.rank → Nat) = fun _ => 0 := by
  funext a; match a with | ⟨0, _⟩ => rfl | ⟨1, _⟩ => rfl

/-- A whole-block store, last, covers the buffer whatever was stored before. -/
theorem cover1 (p0 : Vec F S1024x1024 .f32) (L : List (View.Piece (Elt F) S1024x1024 .f32)) (y : S1024x1024.Idx) :
    ∃ pc ∈ ((⟨r1, p0⟩ : View.Piece (Elt F) S1024x1024 .f32) :: L), y ∈ pc.1.set :=
  ⟨⟨r1, p0⟩, List.mem_cons_self .., View.mem_set_unit_zero hz1 inb_S1024x1024_S1024x1024_0_0 y⟩

/-- The first branch: the column block is the first of its row block (k = 0). -/
abbrev cond1 (i : grid1.Coords) : Prop := (Scalar.cmpi .ne (Scalar.extui (Scalar.cmpi .eq (BitVec.ofNat 32 (i 1).val) 0#32)) 0#32) = 1#1
/-- The second branch: the column block is the last of its row block (k = 9). -/
abbrev cond2 (i : grid1.Coords) : Prop := k1_cond2 i = 1#1

theorem hcond1 : ∀ t : Fin cfg1.N, cond1 (grid1.coords t) ↔ t.val % 10 = 0 :=
  (by decide +kernel : ∀ t : Fin grid1.N, cond1 (grid1.coords t) ↔ t.val % 10 = 0)
theorem hcond2 : ∀ t : Fin cfg1.N, cond2 (grid1.coords t) ↔ t.val % 10 = 9 :=
  (by decide +kernel : ∀ t : Fin grid1.N, cond2 (grid1.coords t) ↔ t.val % 10 = 9)

/-- The two input windows are never idle; the output window is idle, and not written back, exactly away from k = 9. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond2 (grid1.coords t) → cfg1.idle 2 (grid1.coords t) = true := by decide +kernel
theorem noFlush1_2 : ∀ t : Fin cfg1.N, ¬cond2 (grid1.coords t) → (cfg1.win 2).flush t = false := by decide +kernel
theorem liveAt1_2 : ∀ t : Fin cfg1.N, cond2 (grid1.coords t) → cfg1.idle 2 (grid1.coords t) = false := by decide +kernel

/-- The scratch accumulator: a whole scoped buffer of the kernel's own, passed beside the windows. -/
abbrev scM : Memref sig .tc .vmem S1024x1024 .f32 := Memref.whole cc1_scratch0

/-! ## The body's run, case by case -/

set_option maxHeartbeats 2000000 in
/-- FIRST column block (k = 0, not the last): the accumulator, at anything, ends at the product added to zero. -/
theorem runA (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : cond1 i) (hc2 : ¬cond2 i)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 (k1_pay1 (F := F)) x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover1 _ _), View.canon_cons_unit_zero hz1,
    View.readCov_unit_zero (S := S1024x1024) _ hz1 inb_S1024x1024_S1024x1024_0_0]
  simp only [View.readAt_eq_ld, View.ld_unit_zero (S := S1024x1024) hz1]

set_option maxHeartbeats 2000000 in
/-- A MIDDLE column block (0 < k < 9): the accumulator, at `xs`, ends at `xs` plus the product. -/
theorem runB (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : ¬cond1 i) (hc2 : ¬cond2 i)
    (x0 : Vec F S1024x1024 .f32) (x1 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 x0 xs x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover1 _ _), View.canon_cons_unit_zero hz1]
  simp only [View.readAt_eq_ld, View.ld_unit_zero (S := S1024x1024) hz1]

set_option maxHeartbeats 2000000 in
/-- The LAST column block (k = 9): the accumulator, at `xs`, ends at `xs` plus the product, and the output's buffer,
    at anything, at (that + 10240) * 1/2. -/
theorem runC (c : Dev nD) (E : Set ℕ) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole)
    (hc1 : ¬cond1 i) (hc2 : cond2 i)
    (x0 : Vec F S1024x1024 .f32) (x1 : Vec F S1024x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 xs x1)) ∗ owns (c : Thread nD τ) arg5 fullShare (k1_pay2 x0 xs x1)) -∗ K ⟨⟩))
      ⊢ wp frame (wpE (defs₀ (F := F)) Variants.none c none) E (cc1__hamming_fused_kernel i arg2 harg2 arg3 harg3 arg4 harg4 arg5 harg5) K := by
  simp only [cc1__hamming_fused_kernel_eq_skeleton]; unfold cc1__hamming_fused_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover1 _ _), View.canon_cons_unit_zero hz1,
      View.readCov_unit_zero (S := S1024x1024) _ hz1 inb_S1024x1024_S1024x1024_0_0]
    simp only [View.readAt_eq_ld, View.ld_unit_zero (S := S1024x1024) hz1]
  iexists _; isplitr
  swap; · iexact HS
  ipureintro
  sl_unfold_run_names
  rw [View.read_writes_eq_canon _ _ _ (cover1 _ _), View.canon_cons_unit_zero hz1]
  simp only [View.readAt_eq_ld, View.ld_unit_zero (S := S1024x1024) hz1]

end Cert.KernelIdeal.Frm

end
-- ==== Proof.KIFrame1D.lean ====
/-
  The matmul region, continued: the accumulator point by point, the invariant that carries it, the proof data and
  the body obligation.

  After the body at position n = 10 i + k the scratch holds the sum, over the column blocks 0 ... k of row block
  i, of the products of the sign pattern of the query block with the prototype block: by recursion on n, starting
  afresh from zero wherever n is a multiple of 10.
-/
import proofs.«159604_j38036230373922_2_alg».proof.Proof.KIFrame1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the scratch holds after the body at position `n`: the product of the point's blocks
    added to zero where the point opens a row block, to what the point before left otherwise. -/
def accAt (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn =>
    if (n + 1) % 10 = 0 then k1_pay2 (iblk1 V c 0 ⟨n + 1, hn⟩) (k1_pay1 (F := F)) (iblk1 V c 1 ⟨n + 1, hn⟩)
    else k1_pay2 (iblk1 V c 0 ⟨n + 1, hn⟩) (accAt c n (Nat.lt_of_succ_lt hn)) (iblk1 V c 1 ⟨n + 1, hn⟩)

theorem accAt_first (c : Dev nD) (t : Fin cfg1.N) (h : t.val % 10 = 0) :
    accAt V c t.val t.isLt = k1_pay2 (iblk1 V c 0 t) (k1_pay1 (F := F)) (iblk1 V c 1 t) := by
  obtain ⟨n, hn⟩ := t
  cases n with
  | zero => rfl
  | succ n => exact if_pos h

theorem accAt_next (c : Dev nD) (t : Fin cfg1.N) (h : ¬t.val % 10 = 0) :
    accAt V c t.val t.isLt = k1_pay2 (iblk1 V c 0 t) (accAt V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- A scoped buffer of the other region, whole at some contents. -/
abbrev sb (c : Dev nD) (b : Ref sig .tc) : sProp 𝕄 :=
  iprop(∃ f : Buf (Elt F) ((c : Thread nD τ).loc b), ((c : Thread nD τ).loc b) ↦{fullShare} f)

/-- The class invariant with the scratch as a memref owned at some contents. -/
theorem PhiA1_eq (c : Dev nD) :
    (Pipeline.ΦA spec1 c : sProp 𝕄)
      = iprop(iprop(sb c cc0_stg0_0 ∗ sb c cc0_stg0_1 ∗ sb c cc0_stg1_0 ∗ sb c cc0_stg1_1 ∗ (∃ d, owns (c : Thread nD τ) scM fullShare d)) ∗ (∃ r, prngReg c r)) := by
  unfold Pipeline.ΦA; rw [scopedRest1_eq]; simp only [scM, owns_whole]; rfl

/-- The region invariant before position `n`: before the first point the class's (every scoped buffer at anything);
    afterwards the same with the scratch at what the point before left in it. -/
def PhiS (c : Dev nD) : (n : ℕ) → n ≤ cfg1.N → sProp 𝕄
  | 0, _ => Pipeline.ΦA spec1 c
  | n + 1, hn => iprop(iprop(sb c cc0_stg0_0 ∗ sb c cc0_stg0_1 ∗ sb c cc0_stg1_0 ∗ sb c cc0_stg1_1 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(sb c cc0_stg0_0 ∗ sb c cc0_stg0_1 ∗ sb c cc0_stg1_0 ∗ sb c cc0_stg1_1 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(sb c cc0_stg0_0 ∗ sb c cc0_stg0_1 ∗ sb c cc0_stg1_0 ∗ sb c cc0_stg1_1 ∗ owns (c : Thread nD τ) scM fullShare (accAt V c (n - 1) (by omega))) ∗ (∃ r, prngReg c r)) := by
  cases n with
  | zero => exact absurd rfl hz
  | succ n => rfl

/-- The proof data of the region on core `c`: the arrays as the region finds them; after the body at point `t`
    each input's buffer at its block and the output's at (accumulator + 10240) * 1/2 (consulted only where the
    point writes the block back: k = 9); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position among the column blocks says
    which case it is in; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 80 := lt_of_lt_of_eq t.isLt (show cfg1.N = 80 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 10 = 0
  · have h9 : ¬t.val % 10 = 9 := by omega
    rw [Dat.leavesExact_idle (dat1 V c) 2 t (idleAt1_2 t (fun h => h9 ((hcond2 t).mp h))) (noFlush1_2 t (fun h => h9 ((hcond2 t).mp h)))]
    rw [accAt_first V c t h0]
    by_cases hz : t.val = 0
    · rw [PhiS_castSucc V c t, PhiS_zero V c _ _ hz, PhiA1_eq]
      iintro ⟨⟨⟨Ha, Hb, Hc, Hd, HS⟩, Hg⟩, Ho, ⟨%d0, H0⟩, ⟨%d1, H1⟩, H2⟩
      iapply (runA c Set.univ (grid1.coords t) _ _ _ _ _ _ _ _ ((hcond1 t).mpr h0) (fun h => h9 ((hcond2 t).mp h)) (iblk1 V c 0 t) (iblk1 V c 1 t) _)
      isplitl [H0]; · iexact H0
      isplitl [H1]; · iexact H1
      isplitl [HS]; · iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
    · rw [PhiS_castSucc V c t, PhiS_pos V c _ _ hz]
      iintro ⟨⟨⟨Ha, Hb, Hc, Hd, HS⟩, Hg⟩, Ho, ⟨%d0, H0⟩, ⟨%d1, H1⟩, H2⟩
      iapply (runA c Set.univ (grid1.coords t) _ _ _ _ _ _ _ _ ((hcond1 t).mpr h0) (fun h => h9 ((hcond2 t).mp h)) (iblk1 V c 0 t) (iblk1 V c 1 t) _)
      isplitl [H0]; · iexact H0
      isplitl [H1]; · iexact H1
      isplitl [HS]; · iexists _; iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
  · have hz : t.val ≠ 0 := by omega
    rw [accAt_next V c t h0]
    rw [PhiS_castSucc V c t, PhiS_pos V c _ _ hz]
    by_cases h9 : t.val % 10 = 9
    · rw [show (dat1 V c).leavesExact 2 t = owns (c : Thread nD τ) (st1_2 t) fullShare ((dat1 V c).after 2 t) from by
        unfold Dat.leavesExact; rw [liveAt1_2 t ((hcond2 t).mpr h9)], after1_2, accAt_next V c t h0]
      iintro ⟨⟨⟨Ha, Hb, Hc, Hd, HS⟩, Hg⟩, Ho, ⟨%d0, H0⟩, ⟨%d1, H1⟩, ⟨%d2, H2⟩⟩
      iapply (runC c Set.univ (grid1.coords t) _ _ _ _ _ _ _ _ (fun h => h0 ((hcond1 t).mp h)) ((hcond2 t).mpr h9) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2
    · rw [Dat.leavesExact_idle (dat1 V c) 2 t (idleAt1_2 t (fun h => h9 ((hcond2 t).mp h))) (noFlush1_2 t (fun h => h9 ((hcond2 t).mp h)))]
      iintro ⟨⟨⟨Ha, Hb, Hc, Hd, HS⟩, Hg⟩, Ho, ⟨%d0, H0⟩, ⟨%d1, H1⟩, H2⟩
      iapply (runB c Set.univ (grid1.coords t) _ _ _ _ _ _ _ _ (fun h => h0 ((hcond1 t).mp h)) (fun h => h9 ((hcond2 t).mp h)) (iblk1 V c 0 t) (iblk1 V c 1 t) _ _)
      isplitl [H0]; · iexact H0
      isplitl [H1]; · iexact H1
      isplitl [HS]; · iexact HS
      iintro ⟨H0, H1, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class's back: the accumulator's named contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 80 := N_1; omega), PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Region1

end Cert.KernelIdeal.Frm

end
-- ==== Proof.KIRun.lean ====
/-
  The whole run of the program, at any reading of the floats: the host operations before the two kernel regions
  (a zero constant; the prototype array zero-padded from 1000 to 1024 rows), the sign-binarizing region, the matmul
  region, and the host slice that drops the 24 padded columns.

  The buffers' contents at each boundary are a fold from the launch memory: a host stretch applies its operations,
  a region leaves its arrays at what its write-backs leave and every other buffer as entered. Every weakly fair
  execution terminates with each unscoped buffer at the last boundary's contents; in particular the two argument
  arrays end as launched (no host operation and no region writes one), and the result buffer ends at the slice of
  what the matmul region left.
-/
import proofs.«159604_j38036230373922_2_alg».proof.Proof.KIFrame0
import proofs.«159604_j38036230373922_2_alg».proof.Proof.KIFrame1D
import proofs.«159604_j38036230373922_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the zero constant. -/
abbrev W1 : Dev nD → Valuation τ sig (Elt F) := fun c => StableHlo.after hostOps0 (W0 m c)
/-- After the padding (the first region's entry). -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit, likewise. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the slice (the end). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := (W4_arr m c 0).trans (((dat1 (V3 m) c).arrAt_in 0 rfl _).trans (A_eq1 (V3 m) c 0))
    _ = W2 m c (Proc.devRef .tc main_arg0) := W3_of_ne m c main_arg0 (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The sign-binarizing region over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region over the thread state: entered from every unscoped buffer at `W3`, left at `W4`; the scratch
    accumulator goes into the invariant at anything and comes back at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_out1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, with the result buffer at the last boundary's contents and both argument arrays as launched. -/
theorem run_main : θ_run defs (onTc (τ := τ) (main (F := F))) ⟨m, fun _ => 0, ρ⟩ (fun r => ∀ c : Dev nD,
      r.2.mem ((c.tc : Thread nD τ).loc main_v3) = W5 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v3 (by decide)),
       (h c _ (mem_uc main_arg0 (by decide))).trans (W5_main_arg0 m c),
       (h c _ (mem_uc main_arg1 (by decide))).trans (W5_main_arg1 m c)⟩)

end Cert.KernelIdeal.Frm

end
-- ==== Proof.Spec.lean ====
/-
  The specification: the Hamming similarity of sign-binarized rows, as ONE function of the two argument arrays,
  index by index over the extended reals.

  For a query array q of shape 8192 x 10240 and a prototype array a of shape 1000 x 10240, write
  s(x) = +1 where x > 0 and -1 elsewhere. The result at (b, c) is

      (10240 + sum over d < 10240 of s(q(b, d)) * s(a(c, d))) * 1/2,

  the number of positions where the two sign patterns agree. The float literals stay the words the programs
  print (0x46200000 is 10240, 0x3F000000 is 1/2, 0x3F800000 is 1, 0xBF800000 is -1): the same word stands on
  both sides and is never evaluated.
-/
import Idealize.ShloMosaic.PureOps.Ideal
import Idealize.ShloMosaic.Lib.ValueIdx

noncomputable section

namespace Cert.Hamming

open Idealize.ShloMosaic

/-- The sign pattern of one entry: the word for +1 where the entry is above zero, the word for -1 elsewhere. -/
def sgn (x : EReal) : EReal :=
  Scalar.select (Ideal.cmp .ogt x (Ideal.ofBits .f32 0x00000000#32))
    (Ideal.ofBits .f32 0x3F800000#32) (Ideal.ofBits .f32 0xBF800000#32)

/-- The similarity of query row `b` and prototype row `c`. -/
def Gat (q : (⟨2, ![8192, 10240]⟩ : Shape).Idx → EReal) (a : (⟨2, ![1000, 10240]⟩ : Shape).Idx → EReal)
    (b : Fin 8192) (c : Fin 1000) : EReal :=
  (Ideal.ofBits .f32 0x46200000#32 + ∑ d : Fin 10240, sgn (q (ValueIdx.ix2 b d)) * sgn (a (ValueIdx.ix2 c d)))
    * Ideal.ofBits .f32 0x3F000000#32

/-- The whole result array. -/
def G (q : (⟨2, ![8192, 10240]⟩ : Shape).Idx → EReal) (a : (⟨2, ![1000, 10240]⟩ : Shape).Idx → EReal) :
    (⟨2, ![8192, 1000]⟩ : Shape).Idx → EReal :=
  fun i => Gat q a ⟨(i 0).val, (i 0).isLt⟩ ⟨(i 1).val, (i 1).isLt⟩

end Cert.Hamming

end
-- ==== Proof.PayloadAt.lean ====
/-
  The arithmetic of the kernel's bodies, read at an index over the extended reals.

  The first body writes the sign pattern of each entry it reads. The second body starts its accumulator at
  zero, adds to it at (p, q) the sum over j of (the sign pattern of the query block at (p, j)) times (the
  prototype block at (q, j)) (a product of two blocks contracted along the second axis of both), and at the
  end writes (accumulator + the word for 10240) times the word for 1/2.
-/
import proofs.«159604_j38036230373922_2_alg».proof.Proof.Gen.KernelIdeal.Skeleton
import proofs.«159604_j38036230373922_2_alg».proof.Proof.Spec
import Idealize.ShloMosaic.Lib.ValueIdx
import Idealize.ShloMosaic.Lib.Pipeline.Value
import Idealize.ShloMosaic.PureOps.Ideal.Laws

noncomputable section

namespace Cert.Hamming.Pay

open Cert.KernelIdeal Cert.KernelIdeal.Gen Idealize.ShloMosaic ValueIdx

/-- The first body's stored value at an index is the sign pattern of the entry read there. -/
theorem pay_sign (v0 : Vec Ideal S1024x2048 .f32) (j : S1024x2048.Idx) :
    k0_pay1 (F := Ideal) v0 j = Cert.Hamming.sgn (v0 j) := by
  unfold k0_pay1
  simp only [shapeCast_self]
  rfl

/-- The value the second body's accumulator starts from is the word for zero at every index. -/
theorem pay_zero (j : S1024x1024.Idx) : k1_pay1 (F := Ideal) j = Ideal.ofBits .f32 0x00000000#32 := by
  unfold k1_pay1
  simp only [shapeCast_self]
  rfl

/-- The second body's last stored value: the accumulator plus the word for 10240, times the word for 1/2. -/
theorem pay_final (v : Vec Ideal S1024x1024 .f32) (j : S1024x1024.Idx) :
    k1_pay3 (F := Ideal) v j = (v j + Ideal.ofBits .f32 0x46200000#32) * Ideal.ofBits .f32 0x3F000000#32 := by
  unfold k1_pay3
  rfl

/-- The left operand's index of the product at the output index `i` and contraction position `q`: its row is `i`'s row. -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and its column is the contraction position. -/
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's index: its row is `i`'s column. -/
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- … and its column is the contraction position. -/
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The second body's accumulator step at (p, q): the accumulator there plus the sum over j of the sign pattern
of the query block at (p, j) times the prototype block at (q, j). -/
theorem pay_acc (x0 : Vec Ideal S1024x1024 .f32) (acc : Vec Ideal S1024x1024 .f32) (x1 : Vec Ideal S1024x1024 .bf16)
    (p q : Fin 1024) :
    k1_pay2 (F := Ideal) x0 acc x1 (ix2 p q)
      = acc (ix2 p q) + ∑ j : Fin 1024, Cert.Hamming.sgn (x0 (ix2 p j)) * x1 (ix2 q j) := by
  unfold k1_pay2
  simp only [shapeCast_self]
  refine (congrArg (acc (ix2 p q) + ·)
    (Ideal.matmul_constant_zero_apply dot_S1024x1024_S1024x1024_S1024x1024_1_1_0_0_n_n none _ _ (ix2 p q))).trans ?_
  refine congrArg (acc (ix2 p q) + ·) ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q)
      ((ValueIdx.contrEquiv1 dot_S1024x1024_S1024x1024_S1024x1024_1_1_0_0_n_n 1024 rfl rfl).symm k) = ix2 p k :=
    funext fun a => Fin.ext (by
      match a with
      | ⟨0, _⟩ => exact lhs_0 _ _
      | ⟨1, _⟩ => exact (lhs_1 _ _).trans hk)
  have er : dot_S1024x1024_S1024x1024_S1024x1024_1_1_0_0_n_n.rhsIdx (ix2 p q)
      ((ValueIdx.contrEquiv1 dot_S1024x1024_S1024x1024_S1024x1024_1_1_0_0_n_n 1024 rfl rfl).symm k) = ix2 q k :=
    funext fun a => Fin.ext (by
      match a with
      | ⟨0, _⟩ => exact rhs_0 _ _
      | ⟨1, _⟩ => exact (rhs_1 _ _).trans hk)
  rw [el, er]
  rfl

end Cert.Hamming.Pay

end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.KIValue1.lean ====
/-
  What the matmul region leaves in its output array, read at an index over the extended reals.

  Point t = 10 i + k of the 8 x 10 grid reads rows 1024 i ... of the query array and columns 1024 k ... of both
  operands. By induction over the column blocks, after point 10 i + k the accumulator holds at (p, q) the sum over
  the columns d < 1024 (k + 1) of s(Q(1024 i + p, d)) * A(q, d), where s is the sign pattern, Q the query array
  and A the sign-binarized prototype array. At k = 9 that is the sum over all 10240 columns (ten blocks of 1024
  make up the range), and the output block i is stored as (sum + 10240) * 1/2. The blocks written back at the
  points 10 i + 9 tile the output array, so it ends holding that function whole.
-/
import proofs.«159604_j38036230373922_2_alg».proof.Proof.KIRun
import proofs.«159604_j38036230373922_2_alg».proof.Proof.PayloadAt
import proofs.«159604_j38036230373922_2_alg».proof.Proof.LibSumBlocks
import proofs.«159604_j38036230373922_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Hamming.K1

open Cert.KernelIdeal Cert.KernelIdeal.Gen Cert.KernelIdeal.Frm
open Idealize.ShloMosaic Idealize.ShloMosaic.TcCoe Idealize.SL.Sem
open Idealize.ShloMosaic.Pipeline (Dat)
open ValueIdx

/-! ## Where each window's block sits, decided over the grid -/

theorem idx_facts : ∀ t : Fin cfg1.N,
    win1_0.index t (0 : Fin 2) = t.val / 10 ∧ win1_0.index t (1 : Fin 2) = t.val % 10
    ∧ win1_1.index t (0 : Fin 2) = 0 ∧ win1_1.index t (1 : Fin 2) = t.val % 10
    ∧ win1_2.index t (0 : Fin 2) = t.val / 10 ∧ win1_2.index t (1 : Fin 2) = 0 :=
  (by decide +kernel : ∀ t : Fin grid1.N, _)

section Blocks
variable {F : FTy → Type} [FloatOps F]
variable (V : (c : Dev nD) → (b : Ref sig .tc) → Buf (Elt F) ((c : Thread nD τ).loc b))

/-- The query window's block at point t holds rows 1024 (t / 10) + p and columns 1024 (t % 10) + j of its array. -/
theorem blk0_read (c : Dev nD) (t : Fin cfg1.N) (p j : Fin 1024) (b : Fin 8192) (d : Fin 10240)
    (hb : b.val = 1024 * (t.val / 10) + p.val) (hd : d.val = 1024 * (t.val % 10) + j.val) :
    iblk1 V c 0 t (ix2 p j) = V c main_arg0 (ix2 b d) := by
  obtain ⟨e0, e1, -, -, -, -⟩ := idx_facts t
  unfold iblk1
  show V c main_arg0 (((cfg1.win 0).blk t).view.emb (ix2 p j)) = V c main_arg0 (ix2 b d)
  refine congrArg (V c main_arg0) ?_
  funext a; apply Fin.ext
  match a with
  | ⟨0, _⟩ => show win1_0.index t (0 : Fin 2) * 1024 + 1 * p.val = b.val; omega
  | ⟨1, _⟩ => show win1_0.index t (1 : Fin 2) * 1024 + 1 * j.val = d.val; omega

/-- The prototype window's block at point t holds every row q and columns 1024 (t % 10) + j of its array. -/
theorem blk1_read (c : Dev nD) (t : Fin cfg1.N) (q j : Fin 1024) (d : Fin 10240)
    (hd : d.val = 1024 * (t.val % 10) + j.val) :
    iblk1 V c 1 t (ix2 q j) = V c main_v1 (ix2 q d) := by
  obtain ⟨-, -, e2, e3, -, -⟩ := idx_facts t
  unfold iblk1
  show V c main_v1 (((cfg1.win 1).blk t).view.emb (ix2 q j)) = V c main_v1 (ix2 q d)
  refine congrArg (V c main_v1) ?_
  funext a; apply Fin.ext
  match a with
  | ⟨0, _⟩ => show win1_1.index t (0 : Fin 2) * 1024 + 1 * q.val = q.val; omega
  | ⟨1, _⟩ => show win1_1.index t (1 : Fin 2) * 1024 + 1 * j.val = d.val; omega

end Blocks

/-! ## The accumulator, column block by column block -/

section Acc
variable (V : (c : Dev nD) → (b : Ref sig .tc) → Buf (Elt Ideal) ((c : Thread nD τ).loc b))

/-- One term of the contraction, as a function of the column's number (zero past the last column). -/
def term (c : Dev nD) (b : Fin 8192) (q : Fin 1024) (d : ℕ) : EReal :=
  if h : d < 10240 then Cert.Hamming.sgn (V c main_arg0 (ix2 b ⟨d, h⟩)) * V c main_v1 (ix2 q ⟨d, h⟩) else 0

/-- The product of the point's two blocks at (p, q) is the contraction's terms over the point's column block. -/
theorem block_dot (c : Dev nD) (t : Fin cfg1.N) (p q : Fin 1024) (b : Fin 8192) (hb : b.val = 1024 * (t.val / 10) + p.val) :
    ∑ j : Fin 1024, Cert.Hamming.sgn (iblk1 V c 0 t (ix2 p j)) * iblk1 V c 1 t (ix2 q j)
      = ∑ j : Fin 1024, term V c b q (1024 * (t.val % 10) + j.val) := by
  have hN : t.val < 80 := lt_of_lt_of_eq t.isLt (show cfg1.N = 80 from N_1)
  refine Finset.sum_congr rfl fun j _ => ?_
  have hj : j.val < 1024 := j.isLt
  have hd : 1024 * (t.val % 10) + j.val < 10240 := by omega
  rw [term, dif_pos hd, blk0_read V c t p j b ⟨_, hd⟩ hb rfl, blk1_read V c t q j ⟨_, hd⟩ rfl]

/-- After the body at position n the accumulator holds at (p, q) the terms of the column blocks 0 ... n % 10. -/
theorem acc_eq (c : Dev nD) (p q : Fin 1024) :
    ∀ (n : ℕ) (hn : n < cfg1.N) (b : Fin 8192), b.val = 1024 * (n / 10) + p.val →
      accAt V c n hn (ix2 p q) = ∑ kb ∈ Finset.range (n % 10 + 1), ∑ j : Fin 1024, term V c b q (1024 * kb + j.val) := by
  intro n
  induction n with
  | zero =>
    intro hn b hb
    rw [accAt_first V c ⟨0, hn⟩ rfl, Cert.Hamming.Pay.pay_acc, Cert.Hamming.Pay.pay_zero, Ideal.ofBits_zero_f32, zero_add,
      block_dot V c ⟨0, hn⟩ p q b hb]
    simp
  | succ n ih =>
    intro hn b hb
    by_cases h0 : (n + 1) % 10 = 0
    · rw [accAt_first V c ⟨n + 1, hn⟩ h0, Cert.Hamming.Pay.pay_acc, Cert.Hamming.Pay.pay_zero, Ideal.ofBits_zero_f32, zero_add,
        block_dot V c ⟨n + 1, hn⟩ p q b hb]
      show _ = ∑ kb ∈ Finset.range ((n + 1) % 10 + 1), _
      rw [h0]
      simp
    · rw [accAt_next V c ⟨n + 1, hn⟩ h0, Cert.Hamming.Pay.pay_acc, block_dot V c ⟨n + 1, hn⟩ p q b hb]
      have hprev := ih (Nat.lt_of_succ_lt hn) b (by show b.val = 1024 * (n / 10) + p.val; rw [hb]; omega)
      show accAt V c (n + 1 - 1) _ (ix2 p q) + _ = _
      have e1 : n + 1 - 1 = n := rfl
      simp only [e1]
      rw [hprev]
      have e3 : (n + 1) % 10 = n % 10 + 1 := by omega
      rw [e3, Finset.sum_range_succ (fun kb => ∑ j : Fin 1024, term V c b q (1024 * kb + j.val)) (n % 10 + 1)]

end Acc

end Cert.Hamming.K1

end
-- ==== Proof.KIValue2.lean ====
/-
  The matmul region's output array after the run, as one function of the arrays the region is entered with.

  At a point 10 i + 9 the block written back is (accumulator + 10240) * 1/2, and the accumulator there holds the
  terms of all ten column blocks: the sum over every column d < 10240. Block i sits at rows 1024 i ... 1024 i + 1023
  and all 1024 columns of the output array, so the eight blocks tile it.
-/
import proofs.«159604_j38036230373922_2_alg».proof.Proof.KIValue1

set_option maxRecDepth 16384

noncomputable section

namespace Cert.Hamming.K1

open Cert.KernelIdeal Cert.KernelIdeal.Gen Cert.KernelIdeal.Frm
open Idealize.ShloMosaic Idealize.ShloMosaic.TcCoe Idealize.SL.Sem
open Idealize.ShloMosaic.Pipeline (Dat)
open ValueIdx

variable (V : (c : Dev nD) → (b : Ref sig .tc) → Buf (Elt Ideal) ((c : Thread nD τ).loc b))

/-- The padded result array: at (b, q) the sum of the contraction's terms over every column, plus 10240, halved. -/
def Gp (c : Dev nD) : S8192x1024.Idx → EReal := fun i =>
  ((∑ d : Fin 10240, term V c ⟨(i 0).val, (i 0).isLt⟩ ⟨(i 1).val, (i 1).isLt⟩ d.val) + Ideal.ofBits .f32 0x46200000#32)
    * Ideal.ofBits .f32 0x3F000000#32

theorem Gp_apply (c : Dev nD) (i : S8192x1024.Idx) (b : Fin 8192) (q : Fin 1024) (hb : (i 0).val = b.val) (hq : (i 1).val = q.val) :
    Gp V c i = ((∑ d : Fin 10240, term V c b q d.val) + Ideal.ofBits .f32 0x46200000#32) * Ideal.ofBits .f32 0x3F000000#32 := by
  have eb : (⟨(i 0).val, (i 0).isLt⟩ : Fin 8192) = b := Fin.ext hb
  have eq : (⟨(i 1).val, (i 1).isLt⟩ : Fin 1024) = q := Fin.ext hq
  unfold Gp
  rw [eb, eq]

/-- What a point that writes back (k = 9) writes is its block of the padded result. -/
theorem flushed_eq (c : Dev nD) (t : Fin cfg1.N) (hf : (cfg1.win 2).flush t = true) :
    (dat1 V c).flushed 2 t = ((cfg1.win 2).blk t).view.read (Elt Ideal) (Gp V c) := by
  have h9 : t.val % 10 = 9 := (flush1_2 t).mp hf
  have hN : t.val < 80 := lt_of_lt_of_eq t.isLt (show cfg1.N = 80 from N_1)
  obtain ⟨-, -, -, -, e4, e5⟩ := idx_facts t
  show (cfg1.win 2).cut (grid1.coords t) ((dat1 V c).after 2 t) = _
  rw [after1_2]
  funext y
  obtain ⟨p, q, rfl⟩ : ∃ (p q : Fin 1024), y = ix2 p q := ⟨y 0, y 1, eq_ix2 y⟩
  show k1_pay3 (F := Ideal) (accAt V c t.val t.isLt) (ix2 p q) = Gp V c (((cfg1.win 2).blk t).view.emb (ix2 p q))
  have hp : p.val < 1024 := p.isLt
  have hb : 1024 * (t.val / 10) + p.val < 8192 := by omega
  rw [Cert.Hamming.Pay.pay_final, acc_eq V c p q t.val t.isLt ⟨_, hb⟩ rfl, h9,
    Cert.Hamming.sum_blocks_10_1024 (term V c ⟨_, hb⟩ q)]
  refine (Gp_apply V c _ ⟨_, hb⟩ q ?_ ?_).symm
  · show win1_2.index t (0 : Fin 2) * 1024 + 1 * p.val = 1024 * (t.val / 10) + p.val; omega
  · show win1_2.index t (1 : Fin 2) * 1024 + 1 * q.val = q.val; omega

/-- An index of the output array is in point t's block iff each coordinate is in the block's range on its axis. -/
theorem mem_blk (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of the output array is in the block some writing-back point covers: row r is in block r / 1024. -/
theorem cover (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  have hlt : 10 * ((i 0).val / 1024) + 9 < cfg1.N := by rw [show cfg1.N = 80 from N_1]; omega
  refine ⟨⟨10 * ((i 0).val / 1024) + 9, hlt⟩, (flush1_2 _).mpr (by show (10 * ((i 0).val / 1024) + 9) % 10 = 9; omega), ?_⟩
  obtain ⟨-, -, -, -, e4, e5⟩ := idx_facts ⟨10 * ((i 0).val / 1024) + 9, hlt⟩
  have e4' : win1_2.index ⟨10 * ((i 0).val / 1024) + 9, hlt⟩ (0 : Fin 2) = (i 0).val / 1024 := by rw [e4]; show (10 * ((i 0).val / 1024) + 9) / 10 = _; omega
  rw [mem_blk]
  intro a
  match a with
  | ⟨0, _⟩ => show win1_2.index _ (0 : Fin 2) * 1024 ≤ (i 0).val ∧ (i 0).val < win1_2.index _ (0 : Fin 2) * 1024 + 1024; rw [e4']; omega
  | ⟨1, _⟩ => show win1_2.index _ (1 : Fin 2) * 1024 ≤ (i 1).val ∧ (i 1).val < win1_2.index _ (1 : Fin 2) * 1024 + 1024; rw [e5]; omega

/-- THE ARRAY after the region: the padded result, whole. -/
theorem final (c : Dev nD) : (dat1 V c).arrAt 2 cfg1.N = Gp V c :=
  (dat1 V c).arrAt_eq_of_cover 2 (Gp V c) (fun t hf => flushed_eq V c t hf) cover

end Cert.Hamming.K1

end
-- ==== Proof.KIValue0.lean ====
/-
  What the sign-binarizing region leaves in its output array, over the extended reals.

  The region's grid has 5 points; point t reads block t (1024 x 2048) of the zero-padded prototype array and
  writes back the sign pattern of every entry of the block to the same block of the output array. The five
  blocks tile the 1024 x 10240 output, so after the region the output holds, index by index, the sign pattern
  of the padded prototype array; and in its first 1000 rows the padded array is the prototype argument itself.
-/
import proofs.«159604_j38036230373922_2_alg».proof.Proof.KIRun
import proofs.«159604_j38036230373922_2_alg».proof.Proof.PayloadAt
import proofs.«159604_j38036230373922_2_alg».proof.Proof.Spec
import Idealize.ShloMosaic.Lib.Pipeline.Value
import Idealize.ShloMosaic.Lib.ValueIdx
import Idealize.ShloMosaic.Lib.StableHlo.Run
import Idealize.ShloMosaic.Lib.KernelVsHost

noncomputable section

namespace Cert.Hamming.K0

open Cert.KernelIdeal Cert.KernelIdeal.Gen Cert.KernelIdeal.Frm Idealize.ShloMosaic Idealize.ShloMosaic.TcCoe Idealize.SL.Sem ValueIdx
open Idealize.ShloMosaic.Pipeline (Dat)

variable (m : (ℓ : Loc nD τ sig) → Buf (Elt Ideal) ℓ)

theorem offs_zero : (![0, 0] : Fin 2 → Nat) = fun _ => 0 := funext fun a => by fin_cases a <;> rfl

/-- The sign pattern of a whole 1024 x 10240 array, entry by entry. -/
abbrev signOf (a : S1024x10240.Idx → EReal) : S1024x10240.Idx → EReal := fun i => Cert.Hamming.sgn (a i)

/-- The input's and the output's blocks at a point are the same block: both index maps are (i, j) ↦ (i, j). -/
theorem index_same (t : Fin cfg0.N) : win0_0.index t = win0_1.index t := rfl

/-- Every block of the 1 x 5 tiling is some point's. -/
theorem index_onto : ∀ (q0 : Fin 1) (q1 : Fin 5), ∃ t : Fin cfg0.N, win0_1.index t = ![q0.val, q1.val] :=
  (by decide +kernel : ∀ (q0 : Fin 1) (q1 : Fin 5), ∃ t : Fin grid0.N, win0_1.index t = ![q0.val, q1.val])

/-- What point `t` writes back is block `t` of the sign pattern of the padded array the region is entered with. -/
theorem flushed_eq (c : Dev nD) (t : Fin cfg0.N) :
    (dat0 (Frm.V2 m) c).flushed 1 t = ((cfg0.win 1).blk t).view.read (Elt Ideal) (signOf (Frm.V2 m c main_v0)) := by
  show (cfg0.win 1).cut (grid0.coords t) ((dat0 (Frm.V2 m) c).after 1 t) = _
  rw [after0_1]
  unfold out0
  rw [View.canon_unit_zero offs_zero]
  simp only [View.ld_unit_zero (S := S1024x2048) offs_zero]
  funext j
  refine (Cert.Hamming.Pay.pay_sign (iblk0 (Frm.V2 m) c 0 t) j).trans ?_
  rfl

/-- An index of the output array is in point `t`'s block iff each coordinate is in the block's range on its axis. -/
theorem mem_blk (t : Fin cfg0.N) (i : S1024x10240.Idx) :
    i ∈ ((cfg0.win 1).blk t).view.set ↔ ∀ a : Fin 2, win0_1.index t a * S1024x2048.size a ≤ (i a).val
      ∧ (i a).val < win0_1.index t a * S1024x2048.size a + S1024x2048.size a := by
  show i ∈ ((View.whole main_v1).slice (win0_1.rect t)).set ↔ _
  rw [View.set_slice_whole, Rect.mem_set_unit]
  exact Iff.rfl

/-- The five blocks tile the output array: every index is in some point's block. -/
theorem covered (i : S1024x10240.Idx) :
    ∃ t : Fin cfg0.N, (cfg0.win 1).flush t = true ∧ i ∈ ((cfg0.win 1).blk t).view.set := by
  have hi0 : (i 0).val < 1024 := (i 0).isLt
  have hi1 : (i 1).val < 10240 := (i 1).isLt
  obtain ⟨t, ht⟩ := index_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 2048 ≤ (i 1).val ∧ (i 1).val < win0_1.index t (1 : Fin 2) * 2048 + 2048
    omega

/-- After the region the output array is the sign pattern of the padded array, index by index. -/
theorem arr_eq (c : Dev nD) :
    Frm.W3 (F := Ideal) m c (Proc.devRef .tc main_v1) = signOf (Frm.V2 m c main_v0) :=
  (Frm.W3_arr m c 1).trans
    ((dat0 (Frm.V2 m) c).arrAt_eq_of_cover 1 (signOf (Frm.V2 m c main_v0)) (fun t _ => flushed_eq m c t) covered)

/-- The array the region is entered with is the prototype argument padded with 24 rows of the converted zero. -/
theorem padded_eq (c : Dev nD) :
    (Frm.V2 m c main_v0 : S1024x10240.Idx → EReal)
      = pad S1024x10240 ![0, 0] ![24, 0] ![0, 0] (m ((c : Thread nD τ).loc main_arg1))
          (sitofp (F := Ideal) .f32 (constantI S_ 32 0#32)) pads_S1000x10240_S1024x10240_0240_000 h_S_ := by
  show StableHlo.after hostOps0_1 (StableHlo.after hostOps0 (Frm.W0 m c)) (Proc.devRef .tc main_v0) = _
  after_results
  rfl

/-- In each of its first 1000 rows the output array holds the sign pattern of the prototype argument. -/
theorem sa_eq (c : Dev nD) (q : Fin 1000) (d : Fin 10240) :
    Frm.W3 (F := Ideal) m c (Proc.devRef .tc main_v1) (ix2 (⟨q.val, by omega⟩ : Fin 1024) d)
      = Cert.Hamming.sgn (m ((c : Thread nD τ).loc main_arg1) (ix2 q d)) := by
  rw [arr_eq]
  show Cert.Hamming.sgn ((Frm.V2 m c main_v0 : S1024x10240.Idx → EReal) (ix2 (⟨q.val, by omega⟩ : Fin 1024) d)) = _
  rw [padded_eq]
  refine congrArg Cert.Hamming.sgn ?_
  refine pad_apply_of_inside _ _ _ _ _ _ _ _ (ix2 q d) ?_
  intro a
  match a with
  | ⟨0, _⟩ => show q.val = 0 + q.val * (0 + 1); omega
  | ⟨1, _⟩ => show d.val = 0 + d.val * (0 + 1); omega

end Cert.Hamming.K0

end
-- ==== Proof.KIValue3.lean ====
/-
  The kernel's result as the specification of its two arguments.

  The result buffer is the first 1000 columns of what the matmul region left; the query array reaches that region as
  launched; the prototype array reaches it as the sign pattern of its rows (the first region's work, on the first
  1000 of the 1024 padded rows). So at (b, c) the result is (sum over d of s(q(b, d)) * s(a(c, d)) + 10240) * 1/2,
  which is the specification's (10240 + sum) * 1/2 by commuting the one addition.
-/
import proofs.«159604_j38036230373922_2_alg».proof.Proof.KIValue2
import proofs.«159604_j38036230373922_2_alg».proof.Proof.KIValue0
import Idealize.ShloMosaic.Lib.StableHlo.Run

set_option maxRecDepth 16384

noncomputable section

namespace Cert.Hamming.K1

open Cert.KernelIdeal Cert.KernelIdeal.Gen Cert.KernelIdeal.Frm
open Idealize.ShloMosaic Idealize.ShloMosaic.TcCoe Idealize.SL.Sem
open ValueIdx

variable (m : (ℓ : Loc nD τ sig) → Buf (Elt Ideal) ℓ)

/-- The query array reaches the matmul region as launched: no host operation writes it and the first region does not touch it. -/
theorem query_kept (c : Dev nD) : W3 (F := Ideal) m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

/-- The result buffer is the slice [0:8192, 0:1000] of what the matmul region left. -/
theorem result_slice (c : Dev nD) :
    (W5 (F := Ideal) m c (Proc.devRef .tc main_v3) : S8192x1000.Idx → EReal)
      = extractStridedSlice S8192x1000 ![0, 0] (W4 (F := Ideal) m c (Proc.devRef .tc main_v2)) slices_S8192x1024_S8192x1000_0_0 := by
  show StableHlo.after hostOps2 (W4 m c) (Proc.devRef .tc main_v3) = _
  after_results <;> rfl

/-- THE KERNEL'S RESULT is the specification of the two argument arrays. -/
theorem result_eq (c : Dev nD) :
    (W5 (F := Ideal) m c (Proc.devRef .tc main_v3) : S8192x1000.Idx → EReal)
      = Cert.Hamming.G (m ((c : Thread nD τ).loc main_arg0)) (m ((c : Thread nD τ).loc main_arg1)) := by
  refine funext fun (i : S8192x1000.Idx) => ?_
  have hi0 : (i 0).val < 8192 := (i 0).isLt
  have hi1 : (i 1).val < 1000 := (i 1).isLt
  rw [result_slice]
  refine (extractStridedSlice_apply (s := S8192x1024) (t := S8192x1000) ![0, 0] _ slices_S8192x1024_S8192x1000_0_0 i
      (ix2 (⟨(i 0).val, hi0⟩ : Fin 8192) (⟨(i 1).val, by omega⟩ : Fin 1024))
      (fun a => by match a with
        | ⟨0, _⟩ => show (i 0).val = 0 + (i 0).val; omega
        | ⟨1, _⟩ => show (i 1).val = 0 + (i 1).val; omega)).trans ?_
  rw [show W4 (F := Ideal) m c (Proc.devRef .tc main_v2) = (dat1 (V3 m) c).arrAt 2 cfg1.N from W4_arr m c 2, final (V3 m) c,
    Gp_apply (V3 m) c _ ⟨(i 0).val, hi0⟩ ⟨(i 1).val, by omega⟩ rfl rfl]
  unfold Cert.Hamming.G Cert.Hamming.Gat
  rw [add_comm]
  refine congrArg (fun z => (Ideal.ofBits .f32 0x46200000#32 + z) * Ideal.ofBits .f32 0x3F000000#32) ?_
  refine Finset.sum_congr rfl fun d _ => ?_
  rw [term, dif_pos d.isLt]
  show Cert.Hamming.sgn (W3 m c (Proc.devRef .tc main_arg0) (ix2 ⟨(i 0).val, hi0⟩ ⟨d.val, d.isLt⟩)) * W3 m c (Proc.devRef .tc main_v1) (ix2 ⟨(i 1).val, _⟩ ⟨d.val, d.isLt⟩) = _
  rw [query_kept, Cert.Hamming.K0.sa_eq m c ⟨(i 1).val, hi1⟩ d]

end Cert.Hamming.K1

end
-- ==== Proof.RefSpec.lean ====
/-
  The reference computes the specification.

  Read one operation at a time, the reference's result at the index (b, c) is the word for 10240 plus the sum
  over d of (the sign pattern of the query at (b, d)) times (the sign pattern of the prototype at (c, d)), all
  times the word for 1/2: the similarity `G` of the specification at (b, c).
-/
import proofs.«159604_j38036230373922_2_alg».proof.Proof.Gen.ReferenceIdeal.Read
import proofs.«159604_j38036230373922_2_alg».proof.Proof.Spec

noncomputable section

namespace Cert.Hamming.Ref

open Cert.ReferenceIdeal Cert.ReferenceIdeal.Read Idealize.ShloMosaic

/-- The left operand's index of the contraction is the specification's index (b, d). -/
theorem lidx_eq (i : S8192x1000.Idx) (k : Fin 10240) :
    lidx_main_v8 i k = ValueIdx.ix2 ⟨(i 0).val, (i 0).isLt⟩ k :=
  funext fun a => Fin.ext (by match a with | ⟨0, _⟩ => rfl | ⟨1, _⟩ => rfl)

/-- The right operand's index of the contraction is the specification's index (c, d). -/
theorem ridx_eq (i : S8192x1000.Idx) (k : Fin 10240) :
    ridx_main_v8 i k = ValueIdx.ix2 ⟨(i 1).val, (i 1).isLt⟩ k :=
  funext fun a => Fin.ext (by match a with | ⟨0, _⟩ => rfl | ⟨1, _⟩ => rfl)

/-- The reference's sign pattern of the query array is `sgn` of the entry. -/
theorem v3_eq (x0 : (⟨S8192x10240, .f32⟩ : BufTy).Contents (Elt Ideal)) (j : S8192x10240.Idx) :
    val_main_v3 (F := Ideal) x0 j = sgn (x0 j) := by
  rw [val_main_v3_apply, val_main_v2_apply, val_main_v1_apply, val_main_v0_apply, val_main_cst_apply,
    val_main_call0_v0_apply, val_main_cst_0_apply, val_main_call0_v1_apply, val_main_cst_1_apply]
  rfl

/-- The reference's sign pattern of the prototype array is `sgn` of the entry. -/
theorem v7_eq (x1 : (⟨S1000x10240, .f32⟩ : BufTy).Contents (Elt Ideal)) (j : S1000x10240.Idx) :
    val_main_v7 (F := Ideal) x1 j = sgn (x1 j) := by
  rw [val_main_v7_apply, val_main_v6_apply, val_main_v5_apply, val_main_v4_apply, val_main_cst_2_apply,
    val_main_call1_v0_apply, val_main_cst_3_apply, val_main_call1_v1_apply, val_main_cst_4_apply]
  rfl

/-- The reference's result array is the specification `G` of its two arguments. -/
theorem ref_eq (x0 : (⟨Cert.ReferenceIdeal.S8192x10240, .f32⟩ : BufTy).Contents (Elt Ideal))
    (x1 : (⟨Cert.ReferenceIdeal.S1000x10240, .f32⟩ : BufTy).Contents (Elt Ideal)) :
    Cert.ReferenceIdeal.Read.val_main_v12 (F := Ideal) x0 x1 = Cert.Hamming.G x0 x1 := by
  funext i
  rw [val_main_v12_apply, val_main_v10_apply, val_main_v8_apply, val_main_v9_apply, val_main_cst_5_apply,
    val_main_v11_apply, val_main_cst_6_apply]
  simp only [v3_eq, v7_eq, lidx_eq, ridx_eq]
  rfl

end Cert.Hamming.Ref

end
-- ==== Proof.lean ====
/-
  Hamming similarity of sign-binarized vectors: a two-region kernel against a plain matrix product.

  The kernel pads the 1000 x 10240 prototype array to 1024 rows with zeros, replaces every entry by its sign pattern
  (+1 above zero, -1 elsewhere) in a first region, and in a second region accumulates, ten column blocks at a time,
  the products of the query array's sign pattern with those rows, finishing each 1024 x 1024 output block as
  (sum + 10240) * 1/2; the 24 padded columns are sliced off. The reference computes (10240 + sum over all 10240
  columns) * 1/2 in one contraction. Over the extended reals a change of float format is the identity, every sum is
  exact, and addition is commutative and associative, so both are one function of the two argument arrays: the sum
  over ten consecutive blocks of 1024 columns is the sum over the whole range. No finiteness of the inputs is used.

  The three frames are the programs' runs with the results dropped; the idealization rewrote nothing.
-/
import proofs.«159604_j38036230373922_2_alg».proof.Defs
import proofs.«159604_j38036230373922_2_alg».proof.Proof.Gen.Kernel
import proofs.«159604_j38036230373922_2_alg».proof.Proof.Gen.KernelIdeal
import proofs.«159604_j38036230373922_2_alg».proof.Proof.Gen.ReferenceIdeal
import proofs.«159604_j38036230373922_2_alg».proof.Proof.Gen.Pre_finite_inputs
import proofs.«159604_j38036230373922_2_alg».proof.Proof.Gen.ReferenceIdeal.Run
import proofs.«159604_j38036230373922_2_alg».proof.Proof.Gen.ReferenceIdeal.Read
import proofs.«159604_j38036230373922_2_alg».proof.Proof.KRun
import proofs.«159604_j38036230373922_2_alg».proof.Proof.KIRun
import proofs.«159604_j38036230373922_2_alg».proof.Proof.KIValue3
import proofs.«159604_j38036230373922_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves both argument arrays as launched. -/
theorem frame_k : Cert.frame_Kernel := fun m ρ _ =>
  (θ_run Cert.Kernel.defs _ _).mono (fun _ h c => (h c).2) (Cert.Kernel.Frm.run_main (F := Bits) m ρ)

/-- So does its reading over the extended reals. -/
theorem frame_ki : Cert.frame_KernelIdeal := fun m ρ _ =>
  (θ_run Cert.KernelIdeal.defs _ _).mono (fun _ h c => (h c).2) (Cert.KernelIdeal.Frm.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's are the specification of the (agreeing)
    argument arrays: the kernel's by its run read back region by region, the reference's by its run read one operation
    at a time. -/
theorem algebraic : Cert.algebraic_KernelIdeal_ReferenceIdeal := by
  intro m ρ m' ρ' _ hagree
  refine ⟨fun c => Cert.Hamming.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Hamming.K1.result_eq m c), (h c).2⟩)
      (Cert.KernelIdeal.Frm.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.Hamming.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
